-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192 : Shape := ⟨1, ![8192]⟩
abbrev S8192x8192 : Shape := ⟨2, ![8192, 8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S16x8192 .f32) (main_arg1 : FVec F S8192 .f32) (main_arg2 : FVec F S8192x8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S16x8192 : Shape := ⟨2, ![16, 8192]⟩
abbrev S8192 : Shape := ⟨1, ![8192]⟩
abbrev S8192x8192 : Shape := ⟨2, ![8192, 8192]⟩
abbrev S1x8192 : Shape := ⟨2, ![1, 8192]⟩
abbrev S16x2048 : Shape := ⟨2, ![16, 2048]⟩
abbrev S2048x2048 : Shape := ⟨2, ![2048, 2048]⟩

abbrev nBuf : Space → Nat
  | .hbm => 8
  | .vmem => 7
  | .smem => 0
  | _ => 0

abbrev bufTy : (tb : Table) → Fin (tcTables nBuf tb) → BufTy
  | .hbm, ⟨0, _⟩ => ⟨S16x8192, .f32⟩
  | .hbm, ⟨1, _⟩ => ⟨S8192, .f32⟩
  | .hbm, ⟨2, _⟩ => ⟨S8192x8192, .f32⟩
  | .hbm, ⟨3, _⟩ => ⟨S1x8192, .f32⟩
  | .hbm, ⟨4, _⟩ => ⟨S16x8192, .f32⟩
  | .hbm, ⟨5, _⟩ => ⟨S16x8192, .f32⟩
  | .hbm, ⟨6, _⟩ => ⟨S16x8192, .bf16⟩
  | .hbm, ⟨7, _⟩ => ⟨S16x8192, .f32⟩
  | .local _ .vmem, ⟨0, _⟩ => ⟨S16x2048, .bf16⟩
  | .local _ .vmem, ⟨1, _⟩ => ⟨S16x2048, .bf16⟩
  | .local _ .vmem, ⟨2, _⟩ => ⟨S2048x2048, .f32⟩
  | .local _ .vmem, ⟨3, _⟩ => ⟨S2048x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x2048_S2048x2048_0_0 : ∀ a, (![0, 0] : Fin 2 → Nat) a + S2048x2048.size a ≤ S2048x2048.size a
  h_S2048x2048 : 0 < S2048x2048.numel
  dot_S16x2048_S2048x2048_S16x2048_1_0_0_1_n_n_wf : DotDims.WF S16x2048 S2048x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x8192.size a
  hwx0_0 : ∀ i : grid0.Coords, EltTy.bits .bf16 = 32 ∨ (Rect.block (s := S16x8192) S16x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .f32 = 32 ∨ (Rect.block (s := S8192x8192) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x8192.size a
  hwx0_2 : ∀ i : grid0.Coords, EltTy.bits .f32 = 32 ∨ (Rect.block (s := S16x8192) S16x2048.size (cc0_transform_2 i) (hinb0_2 i)).WholeWords (EltTy.packing .f32)

variable [Facts₀]

def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf

abbrev win0_0 : Pipeline.Window sig grid0 :=
  Pipeline.Window.ofSpec (Memref.whole main_v3) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x8192 : Shape := ⟨2, ![16, 8192]⟩
abbrev S8192 : Shape := ⟨1, ![8192]⟩
abbrev S8192x8192 : Shape := ⟨2, ![8192, 8192]⟩
abbrev S1x8192 : Shape := ⟨2, ![1, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192, .f32⟩
  | .hbm, ⟨2, _⟩ => ⟨S8192x8192, .f32⟩
  | .hbm, ⟨3, _⟩ => ⟨S1x8192, .f32⟩
  | .hbm, ⟨4, _⟩ => ⟨S16x8192, .f32⟩
  | .hbm, ⟨5, _⟩ => ⟨S16x8192, .f32⟩
  | .hbm, ⟨6, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  dot_S16x8192_S8192x8192_S16x8192_1_0_0_1_n_n_wf : DotDims.WF S16x8192 S8192x8192 S16x8192 [1] [0] [0] [1] [] []

variable [Facts₀]

def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.Spec.lean ====
/-
  The specification both programs meet at the ideal instance, and the one law that joins their two arrangements.

  With v the [16, 8192] masked input and w the [8192, 8192] weight matrix (extended reals), the result is
      out[p, r] = sum over k < 8192 of v[p, k] * w[k, r].
  The kernel reaches it tile by tile: the contracted axis is cut into 4 tiles of 2048, the result's columns into 4
  tiles of 2048; for column tile n the running sum after contraction tiles 0..k is
      0 + T(n,0) + ... + T(n,k),   T(n,q)[p, j] = sum over i < 2048 of v[p, 2048 q + i] * w[2048 q + i, 2048 n + j].
  After the fourth tile this is the whole sum: a sum over 4 * 2048 terms is the sum of its 4 consecutive runs, which
  on the extended reals needs only that addition is associative and commutative (no finiteness).
-/
import Idealize.ShloMosaic.PureOps.Ideal
import Idealize.ShloMosaic.Lib.ValueIdx
import proofs.«133028_j58351425683882_2_alg».proof.Proof.LibTileStats

noncomputable section

namespace Cert.Spec

open Idealize.ShloMosaic Idealize.ShloMosaic.ValueIdx Cert.Lib.TileStats

/-- Position i of tile q on an axis of 8192 cut into tiles of 2048: 2048 q + i (for q < 4). -/
abbrev col (q : ℕ) (i : Fin 2048) : Fin 8192 := tileRow 8192 2048 (by norm_num) q i

theorem col_val (q : ℕ) (i : Fin 2048) (hq : q < 4) : (col q i).val = q * 2048 + i.val :=
  tileRow_val _ q i (by have := i.isLt; omega)

/-- The result at row p and column r: the full contraction. -/
def G (v : (⟨2, ![16, 8192]⟩ : Shape).Idx → EReal) (w : (⟨2, ![8192, 8192]⟩ : Shape).Idx → EReal)
    (p : Fin 16) (r : Fin 8192) : EReal :=
  ∑ k : Fin 8192, v (ix2 p k) * w (ix2 k r)

/-- Contraction tile q's share of entry (p, 2048 n + j). -/
def tileTerm (v : (⟨2, ![16, 8192]⟩ : Shape).Idx → EReal) (w : (⟨2, ![8192, 8192]⟩ : Shape).Idx → EReal)
    (n q : ℕ) (p : Fin 16) (j : Fin 2048) : EReal :=
  ∑ i : Fin 2048, v (ix2 p (col q i)) * w (ix2 (col q i) (col n j))

/-- The accumulator of column tile n after contraction tiles 0..k, in the order the kernel adds them. -/
def partialSum (v : (⟨2, ![16, 8192]⟩ : Shape).Idx → EReal) (w : (⟨2, ![8192, 8192]⟩ : Shape).Idx → EReal)
    (n : ℕ) : ℕ → Fin 16 → Fin 2048 → EReal
  | 0 => fun p j => 0 + tileTerm v w n 0 p j
  | k + 1 => fun p j => partialSum v w n k p j + tileTerm v w n (k + 1) p j

/-- The ordered running sum is the sum over the tiles so far. -/
theorem partialSum_eq_range (v : (⟨2, ![16, 8192]⟩ : Shape).Idx → EReal) (w : (⟨2, ![8192, 8192]⟩ : Shape).Idx → EReal)
    (n k : ℕ) (p : Fin 16) (j : Fin 2048) :
    partialSum v w n k p j = ∑ q ∈ Finset.range (k + 1), tileTerm v w n q p j := by
  induction k with
  | zero => simp [partialSum]
  | succ k ih =>
    show partialSum v w n k p j + tileTerm v w n (k + 1) p j = _
    rw [ih, Finset.sum_range_succ (fun q => tileTerm v w n q p j) (k + 1)]

/-- After all four contraction tiles the accumulator holds the full contraction at its column. -/
theorem partialSum_three (v : (⟨2, ![16, 8192]⟩ : Shape).Idx → EReal) (w : (⟨2, ![8192, 8192]⟩ : Shape).Idx → EReal)
    (n : ℕ) (p : Fin 16) (j : Fin 2048) :
    partialSum v w n 3 p j = G v w p (col n j) := by
  rw [partialSum_eq_range]
  unfold G
  rw [sum_tiles 4 2048 8192 (by norm_num) (by norm_num) (fun k => v (ix2 p k) * w (ix2 k (col n j)))]
  rfl

end Cert.Spec

end
-- ==== Proof.Pieces.lean ====
/-
  What each control case of the kernel body leaves behind, read back as a value (at any float instance).

  The body keeps a [16, 2048] accumulator in a scratch buffer that lives across grid points. With x0 the
  [16, 2048] block of the masked input, x1 the [2048, 2048] block of the weight matrix and acc the accumulator
  as the point found it, one step is  step x1 acc x0 = acc + x0 · x1  (the body's one arithmetic payload).
    * first point of a column tile: the accumulator is reset to the zero block, then stepped:  step x1 0 x0;
    * a middle point: stepped from what the previous point left:  step x1 acc x0;
    * last point of a column tile: stepped likewise, and the same value is copied to the output block.
-/
import proofs.«133028_j58351425683882_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The zero offset of a whole-buffer access. -/
theorem hz : (![0, 0] : Fin 2 → Nat) = fun _ => 0 := funext fun a => by fin_cases a <;> rfl

/-- A middle point leaves the accumulator stepped once from what it found. -/
theorem scratch_mid (c : Dev nD) (i : grid0.Coords) (a2 : Memref sig .tc .vmem S16x2048 .bf16) (h2 : a2.IsWhole) (a3 : Memref sig .tc .vmem S2048x2048 .f32) (h3 : a3.IsWhole) (a4 : Memref sig .tc .vmem S16x2048 .f32) (h4 : a4.IsWhole) (a5 : Memref sig .tc .vmem S16x2048 .f32) (h5 : a5.IsWhole) (hc0 : ¬cond0_0 i) (hc1 : ¬cond0_1 i)
    (x0 : Vec F S16x2048 .bf16) (x1 : Vec F S2048x2048 .f32) (xs0 : Vec F S16x2048 .f32) :
    sout0_B_0 c i a2 h2 a3 h3 a4 h4 a5 h5 hc0 hc1 x0 x1 xs0 = k0_pay2 x1 xs0 x0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread,
    View.ld_unit_zero (S := S16x2048) hz, View.ld_unit_zero (S := S2048x2048) hz]

/-- The last point of a column tile leaves the accumulator stepped once from what it found, -/
theorem scratch_last (c : Dev nD) (i : grid0.Coords) (a2 : Memref sig .tc .vmem S16x2048 .bf16) (h2 : a2.IsWhole) (a3 : Memref sig .tc .vmem S2048x2048 .f32) (h3 : a3.IsWhole) (a4 : Memref sig .tc .vmem S16x2048 .f32) (h4 : a4.IsWhole) (a5 : Memref sig .tc .vmem S16x2048 .f32) (h5 : a5.IsWhole) (hc0 : ¬cond0_0 i) (hc1 : cond0_1 i)
    (x0 : Vec F S16x2048 .bf16) (x1 : Vec F S2048x2048 .f32) (xs0 : Vec F S16x2048 .f32) :
    sout0_C_0 c i a2 h2 a3 h3 a4 h4 a5 h5 hc0 hc1 x0 x1 xs0 = k0_pay2 x1 xs0 x0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread,
    View.ld_unit_zero (S := S16x2048) hz, View.ld_unit_zero (S := S2048x2048) hz]

/-- and writes that same value to the output block. -/
theorem out_last (c : Dev nD) (i : grid0.Coords) (a2 : Memref sig .tc .vmem S16x2048 .bf16) (h2 : a2.IsWhole) (a3 : Memref sig .tc .vmem S2048x2048 .f32) (h3 : a3.IsWhole) (a4 : Memref sig .tc .vmem S16x2048 .f32) (h4 : a4.IsWhole) (a5 : Memref sig .tc .vmem S16x2048 .f32) (h5 : a5.IsWhole) (hc0 : ¬cond0_0 i) (hc1 : cond0_1 i)
    (x0 : Vec F S16x2048 .bf16) (x1 : Vec F S2048x2048 .f32) (xs0 : Vec F S16x2048 .f32) :
    out0_C_2 c i a2 h2 a3 h3 a4 h4 a5 h5 hc0 hc1 x0 x1 xs0 = k0_pay2 x1 xs0 x0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S16x2048) _ hz]
  simp only [View.readAt_eq_ld, h2.read_unread, h3.read_unread, h5.read_unread,
    View.ld_unit_zero (S := S16x2048) hz, View.ld_unit_zero (S := S2048x2048) hz]

/-- The first point of a column tile resets the accumulator to the zero block and steps it once. -/
theorem scratch_first (c : Dev nD) (i : grid0.Coords) (a2 : Memref sig .tc .vmem S16x2048 .bf16) (h2 : a2.IsWhole) (a3 : Memref sig .tc .vmem S2048x2048 .f32) (h3 : a3.IsWhole) (a4 : Memref sig .tc .vmem S16x2048 .f32) (h4 : a4.IsWhole) (a5 : Memref sig .tc .vmem S16x2048 .f32) (h5 : a5.IsWhole) (hc0 : cond0_0 i) (hc1 : ¬cond0_1 i)
    (x0 : Vec F S16x2048 .bf16) (x1 : Vec F S2048x2048 .f32) :
    sout0_A_0 c i a2 h2 a3 h3 a4 h4 a5 h5 hc0 hc1 x0 x1 = k0_pay2 x1 (k0_pay1 (F := F)) x0 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x2048) hz, View.readCov_unit_zero (S := S16x2048) _ hz]
  simp only [View.readAt_eq_ld, h2.read_unread, h3.read_unread, h5.read_unread,
    View.ld_unit_zero (S := S16x2048) hz, View.ld_unit_zero (S := S2048x2048) hz]

end Cert.KernelIdeal.Pieces

end
-- ==== Proof.Blocks.lean ====
/-
  Where each window's block sits in its array at a grid point.

  The 4 x 4 grid is walked row-major: point t is (n, k) = (t / 4, t % 4), column tile n of the result and
  contraction tile k. At point t
    * the input block (window 0) is columns 2048 k .. 2048 k + 2047 of the [16, 8192] masked input:
        block[p, i] = v[p, 2048 k + i];
    * the weight block (window 1) is rows 2048 k .. and columns 2048 n .. of the [8192, 8192] weight matrix:
        block[i, j] = w[2048 k + i, 2048 n + j];
    * the output block (window 2) is columns 2048 n .. of the [16, 8192] result: entry (p, j) of the block is
      entry (p, 2048 n + j) of the array.
  A block's coordinate in its array is always  block index * block size + coordinate inside the block.
-/
import proofs.«133028_j58351425683882_2_alg».proof.Proof.Gen.KernelIdeal.Frame
import proofs.«133028_j58351425683882_2_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.Spec Idealize.ShloMosaic Idealize.ShloMosaic.TcCoe Idealize.ShloMosaic.ValueIdx
  Idealize.SL.Sem

variable {F : FTy → Type} [FloatOps F]
variable (m : (ℓ : Loc nD τ sig) → Buf (Elt F) ℓ)

/-- The printed index maps over the grid: which block each window is on at point t. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

/-- The input block at point t, entry (p, i): the masked input at (p, 2048 (t % 4) + i). -/
theorem input_block (c : Dev nD) (t : Fin cfg0.N) (p : Fin 16) (i : Fin 2048) :
    iblk m c 0 t (ix2 p i) = V m c main_v3 (ix2 p (col (t.val % 4) i)) := by
  unfold iblk
  rw [View.read_apply]
  show V m c main_v3 (((cfg0.win 0).blk t).view.emb (ix2 p i)) = _
  refine congrArg (V m c main_v3) ?_
  obtain ⟨e0, e1, -⟩ := idx_facts t
  funext a
  apply Fin.ext
  match a with
  | ⟨0, _⟩ => show win0_0.index t (0 : Fin 2) * 16 + 1 * p.val = p.val; omega
  | ⟨1, _⟩ =>
    show win0_0.index t (1 : Fin 2) * 2048 + 1 * i.val = (col (t.val % 4) i).val
    rw [col_val _ _ (by omega)]; omega

/-- The weight block at point t, entry (i, j): the weight matrix at (2048 (t % 4) + i, 2048 (t / 4) + j). -/
theorem weight_block (c : Dev nD) (t : Fin cfg0.N) (i : Fin 2048) (j : Fin 2048) :
    iblk m c 1 t (ix2 i j) = V m c main_arg2 (ix2 (col (t.val % 4) i) (col (t.val / 4) j)) := by
  unfold iblk
  rw [View.read_apply]
  show V m c main_arg2 (((cfg0.win 1).blk t).view.emb (ix2 i j)) = _
  refine congrArg (V m c main_arg2) ?_
  obtain ⟨-, -, e2, e3, -⟩ := idx_facts t
  have hN : t.val < 16 := lt_of_lt_of_eq t.isLt (show cfg0.N = 16 from N_0)
  funext a
  apply Fin.ext
  match a with
  | ⟨0, _⟩ =>
    show win0_1.index t (0 : Fin 2) * 2048 + 1 * i.val = (col (t.val % 4) i).val
    rw [col_val _ _ (by omega)]; omega
  | ⟨1, _⟩ =>
    show win0_1.index t (1 : Fin 2) * 2048 + 1 * j.val = (col (t.val / 4) j).val
    rw [col_val _ _ (by omega)]; omega

/-- Entry (p, j) of the output block at point t is entry (p, 2048 (t / 4) + j) of the result array. -/
theorem output_entry (t : Fin cfg0.N) (p : Fin 16) (j : Fin 2048) :
    ((cfg0.win 2).blk t).view.emb (ix2 p j) = ix2 p (col (t.val / 4) j) := by
  obtain ⟨-, -, -, -, e4, e5⟩ := idx_facts t
  have hN : t.val < 16 := lt_of_lt_of_eq t.isLt (show cfg0.N = 16 from N_0)
  funext a
  apply Fin.ext
  match a with
  | ⟨0, _⟩ => show win0_2.index t (0 : Fin 2) * 16 + 1 * p.val = p.val; omega
  | ⟨1, _⟩ =>
    show win0_2.index t (1 : Fin 2) * 2048 + 1 * j.val = (col (t.val / 4) j).val
    rw [col_val _ _ (by omega)]; omega

end Cert.KernelIdeal.Blocks

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.Payload.lean ====
/-
  The body's arithmetic at an index, on the extended reals.

  One step of the accumulator: with x0 the [16, 2048] input block, x1 the [2048, 2048] weight block and acc the
  accumulator,  (step x1 acc x0)[p, j] = acc[p, j] + sum over i < 2048 of x0[p, i] * x1[i, j].
  The narrowing of the weight block before the product and the identity reshapes are the identity here, and the
  product into a zero accumulator is the plain sum over the one contracted axis.
  The reset block is zero everywhere.
-/
import proofs.«133028_j58351425683882_2_alg».proof.Proof.Gen.KernelIdeal.Skeleton
import proofs.«133028_j58351425683882_2_alg».proof.Proof.LibDotSum
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The reset block is zero at every index. -/
theorem reset_apply (y : S16x2048.Idx) : k0_pay1 (F := Ideal) y = 0 := by
  unfold k0_pay1
  rw [shapeCast_self]
  exact Ideal.ofBits_zero_f32

/-- The left operand's row is the output entry's row, -/
theorem lhs_row (i : S16x2048.Idx) (q : dot_S16x2048_S2048x2048_S16x2048_1_0_0_1_n_n.contr.Idx) : (dot_S16x2048_S2048x2048_S16x2048_1_0_0_1_n_n.lhsIdx i q 0).val = (i 0).val := by
  unfold DotDims.lhsIdx
  rw [dif_neg (show ¬(0 : Fin S16x2048.rank) ∈ dot_S16x2048_S2048x2048_S16x2048_1_0_0_1_n_n.lhsBatch by decide),
    dif_pos (show (0 : Fin S16x2048.rank) ∈ dot_S16x2048_S2048x2048_S16x2048_1_0_0_1_n_n.lhsNonContracting by decide)]
  rfl

/-- and the right operand's column is the output entry's column. -/
theorem rhs_col (i : S16x2048.Idx) (q : dot_S16x2048_S2048x2048_S16x2048_1_0_0_1_n_n.contr.Idx) : (dot_S16x2048_S2048x2048_S16x2048_1_0_0_1_n_n.rhsIdx i q 1).val = (i 1).val := by
  unfold DotDims.rhsIdx
  rw [dif_neg (show ¬(1 : Fin S2048x2048.rank) ∈ dot_S16x2048_S2048x2048_S16x2048_1_0_0_1_n_n.rhsBatch by decide),
    dif_pos (show (1 : Fin S2048x2048.rank) ∈ dot_S16x2048_S2048x2048_S16x2048_1_0_0_1_n_n.rhsNonContracting by decide)]
  rfl

/-- Where the product reads its left operand: row p of the output entry, column k of the contraction. -/
theorem lhs_at (p : Fin 16) (j : Fin 2048) (k : Fin 2048) :
    dot_S16x2048_S2048x2048_S16x2048_1_0_0_1_n_n.lhsIdx (ix2 p j) ((contrEquiv1 dot_S16x2048_S2048x2048_S16x2048_1_0_0_1_n_n 2048 rfl rfl).symm k) = ix2 p k := by
  funext a
  apply Fin.ext
  match a with
  | ⟨0, _⟩ => exact lhs_row _ _
  | ⟨1, _⟩ =>
    exact (dot_S16x2048_S2048x2048_S16x2048_1_0_0_1_n_n.lhsIdx_val_of_single rfl _ _).trans (contrEquiv1_symm_val dot_S16x2048_S2048x2048_S16x2048_1_0_0_1_n_n 2048 rfl rfl k)

/-- Where it reads its right operand: row k of the contraction, column j of the output entry. -/
theorem rhs_at (p : Fin 16) (j : Fin 2048) (k : Fin 2048) :
    dot_S16x2048_S2048x2048_S16x2048_1_0_0_1_n_n.rhsIdx (ix2 p j) ((contrEquiv1 dot_S16x2048_S2048x2048_S16x2048_1_0_0_1_n_n 2048 rfl rfl).symm k) = ix2 k j := by
  funext a
  apply Fin.ext
  match a with
  | ⟨0, _⟩ =>
    exact (dot_S16x2048_S2048x2048_S16x2048_1_0_0_1_n_n.rhsIdx_val_of_single rfl _ _).trans (contrEquiv1_symm_val dot_S16x2048_S2048x2048_S16x2048_1_0_0_1_n_n 2048 rfl rfl k)
  | ⟨1, _⟩ => exact rhs_col _ _

/-- One step of the accumulator at entry (p, j). -/
theorem step_apply (x1 : FVec Ideal S2048x2048 .f32) (acc : FVec Ideal S16x2048 .f32) (x0 : FVec Ideal S16x2048 .bf16)
    (p : Fin 16) (j : Fin 2048) :
    k0_pay2 (F := Ideal) x1 acc x0 (ix2 p j) = acc (ix2 p j) + ∑ i : Fin 2048, x0 (ix2 p i) * x1 (ix2 i j) := by
  unfold k0_pay2
  simp only [shapeCast_self]
  show acc (ix2 p j) + matmul dot_S16x2048_S2048x2048_S16x2048_1_0_0_1_n_n none x0 (truncf .bf16 x1 Facts₀.bitsLt_bf16_f32) (constant S16x2048 .f32 0x00000000#32) (ix2 p j) = _
  refine congrArg (acc (ix2 p j) + ·) ?_
  exact DotSum.matmul_zero_eq_sum dot_S16x2048_S2048x2048_S16x2048_1_0_0_1_n_n 2048 rfl rfl x0 (truncf .bf16 x1 Facts₀.bitsLt_bf16_f32) (ix2 p j)
    (fun k => ix2 p k) (fun k => ix2 k j) (lhs_at p j) (rhs_at p j)

end Cert.KernelIdeal.Payload

end
-- ==== Proof.Accum.lean ====
/-
  What the accumulator holds after each grid point.

  At point t = 4 n + k the body adds contraction tile k's share of column tile n to the accumulator:
      acc'[p, j] = acc[p, j] + T(n, k)[p, j],   T(n, k)[p, j] = sum over i < 2048 of v[p, 2048 k + i] * w[2048 k + i, 2048 n + j],
  with v the masked input and w the weight matrix as the region finds them; at k = 0 the accumulator is first reset
  to zero. So after point t it holds the ordered running sum 0 + T(n,0) + ... + T(n,k): by induction on the point,
  the step at k = 0 starting the sum and every later step extending what the point before left.
-/
import proofs.«133028_j58351425683882_2_alg».proof.Proof.Gen.KernelIdeal.Frame
import proofs.«133028_j58351425683882_2_alg».proof.Proof.Spec
import proofs.«133028_j58351425683882_2_alg».proof.Proof.Pieces
import proofs.«133028_j58351425683882_2_alg».proof.Proof.Payload
import proofs.«133028_j58351425683882_2_alg».proof.Proof.Blocks

noncomputable section

namespace Cert.KernelIdeal.Accum

open Cert.KernelIdeal Cert.KernelIdeal.Gen Cert.Spec Idealize.ShloMosaic Idealize.ShloMosaic.TcCoe Idealize.ShloMosaic.ValueIdx
  Idealize.SL.Sem

variable (m : (ℓ : Loc nD τ sig) → Buf (Elt Ideal) ℓ)

/-- The masked input as the region finds it (the host operations before the region wrote it). -/
abbrev vIn (c : Dev nD) : (⟨2, ![16, 8192]⟩ : Shape).Idx → EReal := V m c main_v3
/-- The weight matrix as the region finds it. -/
abbrev wIn (c : Dev nD) : (⟨2, ![8192, 8192]⟩ : Shape).Idx → EReal := V m c main_arg2

/-- One step at point t: the accumulator gains contraction tile t % 4's share of column tile t / 4. -/
theorem step_at (c : Dev nD) (t : Fin cfg0.N) (acc : FVec Ideal S16x2048 .f32) (p : Fin 16) (j : Fin 2048) :
    k0_pay2 (F := Ideal) (iblk m c 1 t) acc (iblk m c 0 t) (ix2 p j)
      = acc (ix2 p j) + tileTerm (vIn m c) (wIn m c) (t.val / 4) (t.val % 4) p j := by
  refine (Payload.step_apply (iblk m c 1 t) acc (iblk m c 0 t) p j).trans ?_
  refine congrArg (acc (ix2 p j) + ·) (Finset.sum_congr rfl fun i _ => ?_)
  rw [Blocks.input_block m c t p i, Blocks.weight_block m c t i j]

/-- After point n the accumulator holds the running sum of column tile n / 4 over contraction tiles 0 .. n % 4. -/
theorem acc_after (c : Dev nD) : ∀ (n : ℕ) (h : n < cfg0.N) (p : Fin 16) (j : Fin 2048),
    (outsAt0 m c n h).2 (ix2 p j) = partialSum (vIn m c) (wIn m c) (n / 4) (n % 4) p j := by
  intro n
  induction n using Nat.strong_induction_on with
  | _ n ih =>
    intro h p j
    have hN : n < 16 := lt_of_lt_of_eq h (show cfg0.N = 16 from N_0)
    by_cases h0 : n % 4 = 0
    · have h1 : ¬n % 4 = 3 := by omega
      rw [outsAt0_A m c ⟨n, h⟩ h0 h1]
      dsimp only
      rw [Pieces.scratch_first]
      refine (step_at m c ⟨n, h⟩ k0_pay1 p j).trans ?_
      rw [Payload.reset_apply]
      dsimp only
      rw [h0]
      rfl
    · have hn0 : n ≠ 0 := by omega
      have ihp := ih (n - 1) (by omega) (by omega) p j
      have e1 : (n - 1) / 4 = n / 4 := by omega
      obtain ⟨k, hk⟩ : ∃ k, n % 4 = k + 1 := ⟨n % 4 - 1, by omega⟩
      have e2 : (n - 1) % 4 = k := by omega
      rw [e1, e2] at ihp
      by_cases h1 : n % 4 = 3
      · rw [outsAt0_C m c ⟨n, h⟩ h0 h1]
        dsimp only
        rw [Pieces.scratch_last]
        refine (step_at m c ⟨n, h⟩ _ p j).trans ?_
        dsimp only
        rw [ihp, hk]
        rfl
      · rw [outsAt0_B m c ⟨n, h⟩ h0 h1]
        dsimp only
        rw [Pieces.scratch_mid]
        refine (step_at m c ⟨n, h⟩ _ p j).trans ?_
        dsimp only
        rw [ihp, hk]
        rfl

end Cert.KernelIdeal.Accum

end
-- ==== Proof.Result.lean ====
/-
  The kernel's result array.

  The output block of column tile n is written back once, after the tile's last contraction step (points 4 n + 3),
  and holds the accumulator there: the running sum over all four contraction tiles, which is the full contraction
      out[p, 2048 n + j] = sum over k < 8192 of v[p, k] * w[k, 2048 n + j].
  The four write-backs cover the result array (column c belongs to tile c / 2048), so the array ends at the full
  contraction everywhere. The masked input v the region finds is what the host operations before it computed:
  x * mask spread along rows, then narrowed to a shorter float format, which is the identity on the extended reals.
-/
import proofs.«133028_j58351425683882_2_alg».proof.Proof.Gen.KernelIdeal.Value
import proofs.«133028_j58351425683882_2_alg».proof.Proof.Spec
import proofs.«133028_j58351425683882_2_alg».proof.Proof.Pieces
import proofs.«133028_j58351425683882_2_alg».proof.Proof.Blocks
import proofs.«133028_j58351425683882_2_alg».proof.Proof.Accum
import Idealize.ShloMosaic.Lib.StableHlo.Run

noncomputable section

namespace Cert.KernelIdeal.Result

open Cert.KernelIdeal Cert.KernelIdeal.Gen Cert.KernelIdeal.Accum Cert.Spec Idealize.ShloMosaic Idealize.ShloMosaic.TcCoe
  Idealize.ShloMosaic.ValueIdx Idealize.SL.Sem
open Idealize.ShloMosaic.Pipeline (Dat)

variable (m : (ℓ : Loc nD τ sig) → Buf (Elt Ideal) ℓ) (ρ : Dev nD → PrngReg)

/-- The full contraction of what the region finds, as contents of the result array. -/
def contraction (c : Dev nD) : Buf (Elt Ideal) ((c : Thread nD τ).loc main_v4) :=
  fun i => G (vIn m c) (wIn m c) (i 0) (i 1)

/-- What a write-back writes: the block of the full contraction at its column tile. -/
theorem flushed_eq (c : Dev nD) (t : Fin cfg0.N) (hf : (cfg0.win 2).flush t = true) :
    (dats m 0 c).flushed 2 t = ((cfg0.win 2).blk t).view.read (Elt Ideal) (contraction m c) := by
  have h3 : t.val % 4 = 3 := (flush0_2 t).mp hf
  have h0 : ¬t.val % 4 = 0 := by omega
  have hN : t.val < 16 := lt_of_lt_of_eq t.isLt (show cfg0.N = 16 from N_0)
  rw [Value.flushed2_C m c t h0 h3, Pieces.out_last]
  funext y
  obtain ⟨p, j, rfl⟩ : ∃ (p : Fin 16) (j : Fin 2048), y = ix2 p j := ⟨y 0, y 1, eq_ix2 y⟩
  rw [View.read_apply, Blocks.output_entry t p j]
  show k0_pay2 (F := Ideal) (iblk m c 1 t) _ (iblk m c 0 t) (ix2 p j) = G (vIn m c) (wIn m c) p (col (t.val / 4) j)
  rw [step_at m c t _ p j, acc_after m c (t.val - 1) _ p j, ← partialSum_three]
  have e1 : (t.val - 1) / 4 = t.val / 4 := by omega
  have e2 : (t.val - 1) % 4 = 2 := by omega
  rw [e1, e2, h3]
  rfl

/-- An index of the result array lies in point t's block iff each coordinate is in the block's range. -/
theorem mem_blk (t : Fin cfg0.N) (i : S16x8192.Idx) :
    i ∈ ((cfg0.win 2).blk t).view.set ↔ ∀ a : Fin 2, win0_2.index t a * S16x2048.size a ≤ (i a).val
      ∧ (i a).val < win0_2.index t a * S16x2048.size a + S16x2048.size a := by
  show i ∈ ((View.whole main_v4).slice (win0_2.rect t)).set ↔ _
  rw [View.set_slice_whole, Rect.mem_set_unit]
  exact Iff.rfl

/-- Every index of the result array is in the block some write-back writes: column c in column tile c / 2048. -/
theorem cover (i : S16x8192.Idx) :
    ∃ t : Fin cfg0.N, (cfg0.win 2).flush t = true ∧ i ∈ ((cfg0.win 2).blk t).view.set := by
  have hi0 : (i 0).val < 16 := (i 0).isLt
  have hi1 : (i 1).val < 8192 := (i 1).isLt
  have hN : cfg0.N = 16 := N_0
  have hb : 4 * ((i 1).val / 2048) + 3 < cfg0.N := by rw [hN]; omega
  obtain ⟨-, -, -, -, e4, e5⟩ := Blocks.idx_facts ⟨4 * ((i 1).val / 2048) + 3, hb⟩
  have e5' : win0_2.index ⟨4 * ((i 1).val / 2048) + 3, hb⟩ (1 : Fin 2) = (4 * ((i 1).val / 2048) + 3) / 4 := e5
  refine ⟨⟨4 * ((i 1).val / 2048) + 3, hb⟩, (flush0_2 _).mpr (by show (4 * ((i 1).val / 2048) + 3) % 4 = 3; omega), ?_⟩
  rw [mem_blk]
  intro a
  match a with
  | ⟨0, _⟩ =>
    show win0_2.index ⟨4 * ((i 1).val / 2048) + 3, hb⟩ (0 : Fin 2) * 16 ≤ (i 0).val
      ∧ (i 0).val < win0_2.index ⟨4 * ((i 1).val / 2048) + 3, hb⟩ (0 : Fin 2) * 16 + 16
    omega
  | ⟨1, _⟩ =>
    show win0_2.index ⟨4 * ((i 1).val / 2048) + 3, hb⟩ (1 : Fin 2) * 2048 ≤ (i 1).val
      ∧ (i 1).val < win0_2.index ⟨4 * ((i 1).val / 2048) + 3, hb⟩ (1 : Fin 2) * 2048 + 2048
    omega

/-- So the result array ends at the full contraction of what the region finds. -/
theorem final (c : Dev nD) : (dats m 0 c).arrAt 2 cfg0.N = contraction m c :=
  (dats m 0 c).arrAt_eq_of_cover 2 (contraction m c) (flushed_eq m c) cover

/-- The masked input of the launch memory: every row of x multiplied entry by entry with the mask. -/
abbrev masked (c : Dev nD) : FVec Ideal S16x8192 .f32 :=
  mulf (m ((c : Thread nD τ).loc main_arg0))
    (broadcastInDim S16x8192 ![0, 1] Facts₀.bcast_S1x8192_S16x8192_0_1
      (broadcastInDim S1x8192 ![1] Facts₀.bcast_S8192_S1x8192_1 (m ((c : Thread nD τ).loc main_arg1))))

/-- What the region finds as its first operand is the masked input (its narrowing is the identity here). -/
theorem vIn_eq (c : Dev nD) : vIn m c = masked m c := by
  have e : (V m c main_v3 : S16x8192.Idx → Ideal .bf16) = truncf .bf16 (masked m c) Facts₀.bitsLt_bf16_f32 := by
    dsimp only [Gen.V, Gen.hostOps0]; after_results
  exact e

/-- What it finds as its second operand is the weight matrix of the launch memory. -/
theorem wIn_eq (c : Dev nD) : wIn m c = m ((c : Thread nD τ).loc main_arg2) := V_main_arg2 m c

/-- The specification of the launch memory's arguments, as contents of the result array. -/
def spec (c : Dev nD) : Buf (Elt Ideal) ((c : Thread nD τ).loc main_v4) :=
  fun i => G (masked m c) (m ((c : Thread nD τ).loc main_arg2)) (i 0) (i 1)

theorem contraction_eq (c : Dev nD) : contraction m c = spec m c := by
  unfold contraction spec
  rw [vIn_eq, wIn_eq]

/-- The kernel's run: the result array ends at the specification of the arguments, which are unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (contraction_eq m c)), (h c).2⟩)
    (Value.run_blocks m ρ)

end Cert.KernelIdeal.Result

end
-- ==== Proof.RefSide.lean ====
/-
  The reference computes the specification: its matrix product of the masked input x * mask (the mask spread
  along every row) with the weight matrix, read at entry (p, r), is the sum over k < 8192 of
  (x * mask)[p, k] * w[k, r].
-/
import proofs.«133028_j58351425683882_2_alg».proof.Proof.Gen.ReferenceIdeal.Read
import proofs.«133028_j58351425683882_2_alg».proof.Proof.Spec

noncomputable section

namespace Cert.ReferenceIdeal.RefValue

open Cert.ReferenceIdeal Cert.ReferenceIdeal.Gen Cert.ReferenceIdeal.Read Cert.Spec Idealize.ShloMosaic Idealize.ShloMosaic.ValueIdx

/-- The masked input: every row of x multiplied entry by entry with the mask. -/
abbrev masked (x : FVec Ideal S16x8192 .f32) (mask : FVec Ideal S8192 .f32) : FVec Ideal S16x8192 .f32 :=
  mulf x (broadcastInDim S16x8192 ![0, 1] Facts₀.bcast_S1x8192_S16x8192_0_1 (broadcastInDim S1x8192 ![1] Facts₀.bcast_S8192_S1x8192_1 mask))

/-- The reference's result at an index is the full contraction of the masked input with the weight matrix. -/
theorem result_apply (x : FVec Ideal S16x8192 .f32) (mask : FVec Ideal S8192 .f32) (w : FVec Ideal S8192x8192 .f32)
    (i : S16x8192.Idx) :
    val_main_v3 (F := Ideal) x mask w i = G (masked x mask) w (i 0) (i 1) := by
  rw [val_main_v3_apply]
  unfold G
  refine Finset.sum_congr rfl fun k _ => ?_
  have el : lidx_main_v3 i k = ix2 (i 0) k := funext fun a => by
    match a with
    | ⟨0, _⟩ => rfl
    | ⟨1, _⟩ => rfl
  have er : ridx_main_v3 i k = ix2 k (i 1) := funext fun a => by
    match a with
    | ⟨0, _⟩ => rfl
    | ⟨1, _⟩ => rfl
  rw [el, er]
  rfl

end Cert.ReferenceIdeal.RefValue

end
-- ==== Proof.lean ====
/-
  The kernel against its reference on the extended reals.

  Both programs first form the masked input v = x * mask (the [8192] mask spread along each of the 16 rows) and then
  contract it with the [8192, 8192] weight matrix w:   out[p, r] = sum over k < 8192 of v[p, k] * w[k, r].
  The reference does so in one matrix product. The kernel narrows v to a shorter float format (the identity on the
  extended reals), and walks a 4 x 4 grid: for each of the 4 column tiles of the result it resets an accumulator to
  zero, adds the products of the 4 contraction tiles of 2048 one after the other, and writes the accumulator out
  after the fourth. A sum of 8192 terms is the sum of its 4 consecutive runs of 2048 — addition on the extended
  reals is associative and commutative — so the two results agree entry by entry; no finiteness of the inputs is
  used. The idealized kernel is the kernel's own text read on the extended reals (no rewrite to account for).
-/
import proofs.«133028_j58351425683882_2_alg».proof.Defs
import proofs.«133028_j58351425683882_2_alg».proof.Proof.Gen.Kernel
import proofs.«133028_j58351425683882_2_alg».proof.Proof.Gen.Kernel.Frame
import proofs.«133028_j58351425683882_2_alg».proof.Proof.Gen.KernelIdeal
import proofs.«133028_j58351425683882_2_alg».proof.Proof.Gen.KernelIdeal.Frame
import proofs.«133028_j58351425683882_2_alg».proof.Proof.Gen.KernelIdeal.Value
import proofs.«133028_j58351425683882_2_alg».proof.Proof.Gen.ReferenceIdeal
import proofs.«133028_j58351425683882_2_alg».proof.Proof.Gen.ReferenceIdeal.Run
import proofs.«133028_j58351425683882_2_alg».proof.Proof.Gen.ReferenceIdeal.Read
import proofs.«133028_j58351425683882_2_alg».proof.Proof.Gen.Pre_finite_inputs
import proofs.«133028_j58351425683882_2_alg».proof.Proof.Result
import proofs.«133028_j58351425683882_2_alg».proof.Proof.RefSide
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on x, mask and w, both programs end with the full contraction of x * mask with w. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  funext i
  exact Cert.ReferenceIdeal.RefValue.result_apply _ _ _ i

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
